-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S10000x128 : Shape := ⟨2, ![10000, 128]⟩

abbrev nBuf : Space → Nat
  | .hbm => 22
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.Affine.lean ====
/-
  The layer both programs compute on the aggregated node features, as ONE function of three arrays, index by index.

  For aggregated features `H` (50000 nodes × 128 input features), a weight matrix and a bias, node `n`'s output
  feature `o` is `∑ k, H[n, k] · W[o, k] + b[o]`. The kernel is handed the weights already transposed
  (`Wt[k, o] = W[o, k]`) and the bias as a one-row matrix (`b2[0, o] = b[o]`), so its form of the same number is
  `∑ k, H[n, k] · Wt[k, o] + b2[0, o]`: the two forms agree term by term, with no law of the extended reals beyond
  reading each factor at the index the other form names.
-/
import Idealize.ShloMosaic.PureOps.Ideal
import Idealize.ShloMosaic.Lib.ValueIdx

noncomputable section

namespace Cert.Gcn

open Idealize.ShloMosaic Idealize.ShloMosaic.ValueIdx

/-- Node `n`, output feature `o`: the row of `H` against the ROW `o` of the weights, plus the bias at `o`. -/
def affine (H : FVec Ideal ⟨2, ![50000, 128]⟩ .f32) (W : FVec Ideal ⟨2, ![128, 128]⟩ .f32) (b : FVec Ideal ⟨1, ![128]⟩ .f32) :
    FVec Ideal ⟨2, ![50000, 128]⟩ .f32 :=
  fun i => (∑ k : Fin 128, H (ix2 (i 0) k) * W (ix2 (i 1) k)) + b (ix1 (i 1))

/-- The same with the weights transposed and the bias a one-row matrix: the row of `H` against the COLUMN `o`. -/
def affineT (H : FVec Ideal ⟨2, ![50000, 128]⟩ .f32) (Wt : FVec Ideal ⟨2, ![128, 128]⟩ .bf16) (b2 : FVec Ideal ⟨2, ![1, 128]⟩ .f32) :
    FVec Ideal ⟨2, ![50000, 128]⟩ .f32 :=
  fun i => (∑ k : Fin 128, H (ix2 (i 0) k) * Wt (ix2 k (i 1))) + b2 (ix2 0 (i 1))

/-- When `Wt` is the transpose of `W` and `b2`'s one row is `b`, the two forms are one function. -/
theorem affineT_eq_affine (H : FVec Ideal ⟨2, ![50000, 128]⟩ .f32) (Wt : FVec Ideal ⟨2, ![128, 128]⟩ .bf16)
    (b2 : FVec Ideal ⟨2, ![1, 128]⟩ .f32) (W : FVec Ideal ⟨2, ![128, 128]⟩ .f32) (b : FVec Ideal ⟨1, ![128]⟩ .f32)
    (hW : ∀ (k q : Fin 128), Wt (ix2 k q) = W (ix2 q k)) (hb : ∀ q : Fin 128, b2 (ix2 0 q) = b (ix1 q)) :
    affineT H Wt b2 = affine H W b := by
  funext i
  unfold affineT affine
  rw [hb (i 1)]
  exact congrArg (· + b (ix1 (i 1))) (Finset.sum_congr rfl fun k _ => by rw [hW k (i 1)])

end Cert.Gcn

end
-- ==== Proof.BodyAt.lean ====
/-
  What one run of the kernel body stores, read at an index of its block.

  The body takes a block `x0` of 10000 rows of the aggregated features, the whole transposed weight matrix `x1` and the
  one-row bias `x2`, multiplies the first two into a zero accumulator and adds the bias row to every row. At the exact
  values the change of float format on the way into the product is the identity, the accumulator contributes `0`, and
  the product at (p, q) is the sum over the shared axis — so the stored value at row `p`, column `q` is
  `∑ k, x0[p, k] · x1[k, q] + x2[0, q]`.
-/
import proofs.«138609_j90486370992279_1_alg».proof.Proof.Gen.KernelIdeal.Skeleton
import proofs.«138609_j90486370992279_1_alg».proof.Proof.Affine
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.KernelIdeal Cert.KernelIdeal.Gen

/-- At output index `j` and contraction index `c`, the left operand is read at row `j 0`. -/
theorem lhs_row (j : S10000x128.Idx) (c : dot_S10000x128_S128x128_S10000x128_1_0_0_1_n_n.contr.Idx) :
    (dot_S10000x128_S128x128_S10000x128_1_0_0_1_n_n.lhsIdx j c 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- At output index `j` and contraction index `c`, the left operand is read at the column `c` names. -/
theorem lhs_col (j : S10000x128.Idx) (c : dot_S10000x128_S128x128_S10000x128_1_0_0_1_n_n.contr.Idx) :
    (dot_S10000x128_S128x128_S10000x128_1_0_0_1_n_n.lhsIdx j c 1).val = (c ⟨0, by decide⟩).val :=
  dot_S10000x128_S128x128_S10000x128_1_0_0_1_n_n.lhsIdx_val_of_single rfl j c
/-- At output index `j` and contraction index `c`, the right operand is read at the row `c` names. -/
theorem rhs_row (j : S10000x128.Idx) (c : dot_S10000x128_S128x128_S10000x128_1_0_0_1_n_n.contr.Idx) :
    (dot_S10000x128_S128x128_S10000x128_1_0_0_1_n_n.rhsIdx j c 0).val = (c ⟨0, by decide⟩).val :=
  dot_S10000x128_S128x128_S10000x128_1_0_0_1_n_n.rhsIdx_val_of_single rfl j c
/-- At output index `j` and contraction index `c`, the right operand is read at column `j 1`. -/
theorem rhs_col (j : S10000x128.Idx) (c : dot_S10000x128_S128x128_S10000x128_1_0_0_1_n_n.contr.Idx) :
    (dot_S10000x128_S128x128_S10000x128_1_0_0_1_n_n.rhsIdx j c 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, at (p, q): the sum over the shared axis of the operands' products. -/
theorem product_at (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q) = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The one-row bias spread over the block's rows, at (p, q): the bias row at `q`. -/
theorem biasRows_at (v : FVec Ideal S1x128 .f32) (p : Fin 10000) (q : Fin 128) :
    broadcastTo S10000x128 v broadcasts_S1x128_S10000x128 (ix2 p q) = v (ix2 0 q) :=
  broadcastTo_apply v broadcasts_S1x128_S10000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- WHAT THE BODY STORES at row `p`, column `q` of its block. -/
theorem body_at (x0 : Vec Ideal S10000x128 .f32) (x1 : Vec Ideal S128x128 .bf16) (x2 : Vec Ideal S1x128 .f32)
    (p : Fin 10000) (q : Fin 128) :
    k0_pay1 (F := Ideal) x0 x1 x2 (ix2 p q) = (∑ k : Fin 128, x0 (ix2 p k) * x1 (ix2 k q)) + x2 (ix2 0 q) := by
  unfold k0_pay1
  rw [shapeCast_self, shapeCast_self, shapeCast_self]
  refine (addf_apply _ _ _).trans ?_
  rw [product_at, biasRows_at]
  rfl

/-- The same, set against whole arrays: if row `p` of the features block is row `i 0` of an array `H`, column `q` of the
    weights block is column `i 1` of an array `Wt`, and the bias block at `q` is the row array `b2` at `i 1`, then what
    the body stores at (p, q) is the transposed form of the layer over `H`, `Wt`, `b2` at the array index `i`. -/
theorem body_at_array (H : FVec Ideal ⟨2, ![50000, 128]⟩ .f32) (Wt : FVec Ideal ⟨2, ![128, 128]⟩ .bf16) (b2 : FVec Ideal ⟨2, ![1, 128]⟩ .f32)
    (x0 : Vec Ideal S10000x128 .f32) (x1 : Vec Ideal S128x128 .bf16) (x2 : Vec Ideal S1x128 .f32)
    (p : Fin 10000) (q : Fin 128) (i : (⟨2, ![50000, 128]⟩ : Shape).Idx)
    (hf : ∀ k : Fin 128, x0 (ix2 p k) = H (ix2 (i 0) k)) (hw : ∀ k : Fin 128, x1 (ix2 k q) = Wt (ix2 k (i 1)))
    (hb : x2 (ix2 0 q) = b2 (ix2 0 (i 1))) :
    k0_pay1 (F := Ideal) x0 x1 x2 (ix2 p q) = affineT H Wt b2 i := by
  rw [body_at]
  unfold affineT
  rw [hb]
  exact congrArg (· + b2 (ix2 0 (i 1))) (Finset.sum_congr rfl fun k _ => by rw [hf k, hw k])

end Cert.Gcn

end
-- ==== Proof.RefAffine.lean ====
/-
  The reference's result is the layer `affine` of the aggregated features, the weights and the bias.

  After the aggregation (the gather and the scatter-add, which this file never opens) the reference contracts the
  feature axis of the aggregated array with the SECOND axis of the weight matrix, and adds the bias spread first to
  one row and then over all rows. Read at node `n`, feature `o`: `∑ k, H[n, k] · W[o, k] + b[o]`.
-/
import proofs.«138609_j90486370992279_1_alg».proof.Proof.Gen.ReferenceIdeal.Read
import proofs.«138609_j90486370992279_1_alg».proof.Proof.Affine

noncomputable section

namespace Cert.Gcn

open Idealize.ShloMosaic Idealize.ShloMosaic.ValueIdx Cert.ReferenceIdeal Cert.ReferenceIdeal.Read

/-- The reference's last stage, as a function of its five arguments, is `affine` of the aggregation stage. -/
theorem reference_eq_affine (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v13 (F := Ideal) x0 x1 x2 x3 x4 = affine (val_main_v9 (F := Ideal) x0 x1 x2) x3 x4 := by
  funext i
  have el : ∀ k : Fin 128, lidx_main_v10 i k = ix2 (i 0) k := fun k =>
    funext fun a => Fin.ext (by match a with | ⟨0, _⟩ => rfl | ⟨1, _⟩ => rfl)
  have er : ∀ k : Fin 128, ridx_main_v10 i k = ix2 (i 1) k := fun k =>
    funext fun a => Fin.ext (by match a with | ⟨0, _⟩ => rfl | ⟨1, _⟩ => rfl)
  have eb : idx_main_v11 (idx_main_v12 i) = ix1 (i 1) :=
    funext fun a => Fin.ext (by match a with | ⟨0, _⟩ => rfl)
  rw [val_main_v13_apply, val_main_v10_apply, val_main_v12_apply, val_main_v11_apply]
  simp only [el, er, eb]
  rfl

end Cert.Gcn

end
-- ==== Proof.EntryArrays.lean ====
/-
  The three arrays the kernel's grid reads, as the host operations before it leave them — and, with them, the kernel's form
  of the layer turned into the reference's.

  Before the grid starts, the program has (i) aggregated the node features — the same gather and scatter-add, over the same
  wrapped source indices, the same zero fill and the same destination indices as the reference's, so the array is the
  reference's aggregation stage of the same arguments, operation for operation; (ii) transposed the weight matrix and
  changed its float format, which at the exact values leaves `Wt[k, o] = W[o, k]`; (iii) reshaped the bias vector to one
  row, `b2[0, o] = b[o]`. So the transposed form of the layer over these three arrays is `affine` of the aggregation
  stage, the weights and the bias.
-/
import proofs.«138609_j90486370992279_1_alg».proof.Proof.Gen.KernelIdeal.Frame
import proofs.«138609_j90486370992279_1_alg».proof.Proof.Gen.ReferenceIdeal.Read
import proofs.«138609_j90486370992279_1_alg».proof.Proof.Affine
import Idealize.ShloMosaic.Lib.ValueIdx
import Idealize.ShloMosaic.Lib.Pipeline.Value
import Idealize.ShloMosaic.Lib.StableHlo.Run

noncomputable section

namespace Cert.Gcn

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The aggregated features the grid reads are the reference's aggregation stage of the same three arguments. -/
theorem entry_features (c : Dev nD) :
    (V m c main_v9 : S50000x128.Idx → Elt Ideal .f32)
      = Cert.ReferenceIdeal.Read.val_main_v9 (F := Ideal) (m ((c : Thread nD τ).loc main_arg0)) (m ((c : Thread nD τ).loc main_arg1)) (m ((c : Thread nD τ).loc main_arg2)) := by
  dsimp only [Gen.V, Gen.hostOps0]; after_results <;> rfl

/-- The weights the grid reads: the transpose of the weight matrix, in the narrower float format. -/
theorem entry_weights (c : Dev nD) :
    (V m c main_v11 : S128x128.Idx → Elt Ideal .bf16)
      = truncf (F := Ideal) .bf16 (transpose (α := Elt Ideal .f32) S128x128 [1, 0] (m ((c : Thread nD τ).loc main_arg3)) transposes_S128x128_S128x128_1_0) bitsLt_bf16_f32 := by
  dsimp only [Gen.V, Gen.hostOps0]; after_results <;> rfl

/-- The bias the grid reads: the bias vector as one row. -/
theorem entry_bias (c : Dev nD) :
    (V m c main_v12 : S1x128.Idx → Elt Ideal .f32)
      = shapeCast (α := Elt Ideal .f32) S1x128 (m ((c : Thread nD τ).loc main_arg4)) shapeCasts_S128_S1x128 := by
  dsimp only [Gen.V, Gen.hostOps0]; after_results <;> rfl

/-- Read at (k, o), the grid's weights are the weight matrix at (o, k). -/
theorem entry_weights_at (c : Dev nD) (k o : Fin 128) :
    (V m c main_v11 : S128x128.Idx → Elt Ideal .bf16) (ix2 k o) = m ((c : Thread nD τ).loc main_arg3) (ix2 o k) := by
  rw [entry_weights]
  show transpose (α := Elt Ideal .f32) S128x128 [1, 0] (m ((c : Thread nD τ).loc main_arg3)) transposes_S128x128_S128x128_1_0 (ix2 k o) = _
  exact transpose_apply [1, 0] _ transposes_S128x128_S128x128_1_0 (ix2 k o) (ix2 o k) (fun b => match b with
    | ⟨0, _⟩ => rfl
    | ⟨1, _⟩ => rfl)

/-- Read at (0, o), the grid's bias row is the bias vector at `o`. -/
theorem entry_bias_at (c : Dev nD) (o : Fin 128) :
    (V m c main_v12 : S1x128.Idx → Elt Ideal .f32) (ix2 0 o) = m ((c : Thread nD τ).loc main_arg4) (ix1 o) := by
  rw [entry_bias]
  exact shapeCast_apply _ shapeCasts_S128_S1x128 (ix2 0 o) (ix1 o) (by
    rw [Shape.rowMajor_val_one, Shape.rowMajor_val_two]; show o.val = 0 * 128 + o.val; omega)

/-- The transposed form of the layer over the grid's three arrays is `affine` of the reference's aggregation stage, the
    weight matrix and the bias vector. -/
theorem entry_affine (c : Dev nD) :
    affineT (V m c main_v9) (V m c main_v11) (V m c main_v12)
      = affine (Cert.ReferenceIdeal.Read.val_main_v9 (F := Ideal) (m ((c : Thread nD τ).loc main_arg0)) (m ((c : Thread nD τ).loc main_arg1)) (m ((c : Thread nD τ).loc main_arg2)))
          (m ((c : Thread nD τ).loc main_arg3)) (m ((c : Thread nD τ).loc main_arg4)) := by
  rw [← entry_features]
  exact affineT_eq_affine _ _ _ _ _ (entry_weights_at m c) (entry_bias_at m c)

end Cert.Gcn

end
-- ==== Proof.GridArray.lean ====
/-
  From what each grid point writes back to the whole result array.

  The grid has five points; point `t` reads rows `10000·t … 10000·t + 9999` of the aggregated features, the whole
  transposed weight matrix and the whole one-row bias, and writes back the same rows of the result. What the body stores
  at row `p`, column `q` of its block is therefore the transposed form of the layer at row `10000·t + p`, column `q` of
  the array: every point writes its block of ONE whole-array function. The five blocks tile the 50000 rows (row `r` is in
  the block of point `r / 10000`), so after the run the result array is that function everywhere.
-/
import proofs.«138609_j90486370992279_1_alg».proof.Proof.Gen.KernelIdeal.Value
import proofs.«138609_j90486370992279_1_alg».proof.Proof.Affine
import proofs.«138609_j90486370992279_1_alg».proof.Proof.BodyAt

noncomputable section

namespace Cert.Gcn

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The block indices at each of the five points: the features' row block is the result's, which is the point itself;
    every other block index is zero (whole weights, whole bias, all 128 columns). -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- WHAT POINT `t` WRITES BACK is its block of the transposed form of the layer over the three arrays the grid reads. -/
theorem flushed_eq (c : Dev nD) (t : Fin cfg0.N) :
    (dats m 0 c).flushed 3 t
      = ((cfg0.win 3).blk t).view.read (Elt Ideal) (affineT (V m c main_v9) (V m c main_v11) (V m c main_v12)) := by
  rw [Cert.KernelIdeal.Value.flushed3]
  unfold Gen.out0_3
  rw [View.canon_unit_zero origin]
  simp only [View.ld_unit_zero (S := S10000x128) origin, View.ld_unit_zero (S := S128x128) origin, View.ld_unit_zero (S := S1x128) origin]
  obtain ⟨e0, e1, e2, e3, e4, e5, e6, e7⟩ := block_indices t
  funext j
  obtain ⟨p, q, rfl⟩ : ∃ (p : Fin 10000) (q : Fin 128), j = ix2 p q := ⟨j 0, j 1, eq_ix2 j⟩
  show k0_pay1 (F := Ideal) (iblk m c 0 t) (iblk m c 1 t) (iblk m c 2 t) (ix2 p q) = _
  rw [View.read_apply, cast_eq]
  refine body_at_array (V m c main_v9) (V m c main_v11) (V m c main_v12) (iblk m c 0 t) (iblk m c 1 t) (iblk m c 2 t) p q
    (((cfg0.win 3).blk t).view.emb (ix2 p q)) ?_ ?_ ?_
  · -- the features: row `p` of the point's row block is row `10000·t + p` of the array
    intro k
    unfold iblk
    rw [View.read_apply, cast_eq]
    refine congrArg _ (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  · -- the weights: the whole matrix, column `q`
    intro k
    unfold iblk
    rw [View.read_apply, cast_eq]
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · -- the bias row: block (0, 0) of the one-row array, column `q`
    unfold iblk
    rw [View.read_apply, cast_eq]
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- THE COVER: row `r` of the result lies in the block of point `r / 10000`, which writes back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, e6, e7⟩ := block_indices t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE RESULT ARRAY after the run: the transposed form of the layer over the three arrays the grid reads, everywhere. -/
theorem final (c : Dev nD) :
    (dats m 0 c).arrAt 3 cfg0.N = affineT (V m c main_v9) (V m c main_v11) (V m c main_v12) :=
  (dats m 0 c).arrAt_eq_of_cover 3 _ (fun t _ => flushed_eq m c t) covered

/-- The kernel's run with the result array named: that function of the arrays the grid reads; the arguments unchanged. -/
theorem kernel_run : θ_run defs (onTc (τ := τ) (main (F := Ideal))) ⟨m, fun _ => 0, ρ⟩ fun r => ∀ c : Dev nD,
      r.2.mem ((c : Thread nD τ).loc main_v13) = affineT (V m c main_v9) (V m c main_v11) (V m c main_v12)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Gcn

end
-- ==== Proof.lean ====
/-
  A graph-convolution layer: aggregate each node's incoming neighbour features, then apply a linear layer.

  Both programs first build the aggregated features `H` on the host — source indices wrapped once by the node count when
  negative, rows of `x` gathered at them, and scatter-added into a zero array at the destination indices — by the same
  operations on the same literals, so `H` is one term of the arguments on both sides and is never opened here.
  The kernel then hands a grid of five row blocks `H`, the transposed weights `Wt[k, o] = W[o, k]` (in a narrower float
  format, which at the exact values changes nothing) and the bias as one row, and each point stores
  `∑ k, H[n, k] · Wt[k, o] + b2[0, o]` over its 10000 rows (BodyAt, GridArray). The reference contracts `H` with the second
  axis of `W` and adds the bias: `∑ k, H[n, k] · W[o, k] + b[o]` (RefAffine). The two sums agree term by term (Affine,
  EntryArrays): no law of the extended reals is used beyond reading each factor at the index the other side names, so the
  finiteness of the inputs is never needed. Nothing in the kernel was rewritten for the exact reading, so that conjunct is trivial.
-/
import proofs.«138609_j90486370992279_1_alg».proof.Defs
import proofs.«138609_j90486370992279_1_alg».proof.Proof.Gen.Kernel
import proofs.«138609_j90486370992279_1_alg».proof.Proof.Gen.Kernel.Skeleton
import proofs.«138609_j90486370992279_1_alg».proof.Proof.Gen.Kernel.Launch
import proofs.«138609_j90486370992279_1_alg».proof.Proof.Gen.Kernel.Points
import proofs.«138609_j90486370992279_1_alg».proof.Proof.Gen.Kernel.Frame
import proofs.«138609_j90486370992279_1_alg».proof.Proof.Gen.KernelIdeal
import proofs.«138609_j90486370992279_1_alg».proof.Proof.Gen.KernelIdeal.Skeleton
import proofs.«138609_j90486370992279_1_alg».proof.Proof.Gen.KernelIdeal.Launch
import proofs.«138609_j90486370992279_1_alg».proof.Proof.Gen.KernelIdeal.Points
import proofs.«138609_j90486370992279_1_alg».proof.Proof.Gen.KernelIdeal.Frame
import proofs.«138609_j90486370992279_1_alg».proof.Proof.Gen.ReferenceIdeal
import proofs.«138609_j90486370992279_1_alg».proof.Proof.Gen.Pre_finite_inputs
import proofs.«138609_j90486370992279_1_alg».proof.Proof.Gen.KernelIdeal.Value
import proofs.«138609_j90486370992279_1_alg».proof.Proof.Gen.ReferenceIdeal.Run
import proofs.«138609_j90486370992279_1_alg».proof.Proof.Gen.ReferenceIdeal.Read
import proofs.«138609_j90486370992279_1_alg».proof.Proof.Affine
import proofs.«138609_j90486370992279_1_alg».proof.Proof.BodyAt
import proofs.«138609_j90486370992279_1_alg».proof.Proof.RefAffine
import proofs.«138609_j90486370992279_1_alg».proof.Proof.EntryArrays
import proofs.«138609_j90486370992279_1_alg».proof.Proof.GridArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments, both programs end with the result array at `affine` of the aggregation
    stage, the weights and the bias: the kernel by its grid (`kernel_run`) and the arrays it was handed (`entry_affine`),
    the reference by its last stage (`reference_eq_affine`). -/
theorem algebraic : Cert.algebraic_KernelIdeal_ReferenceIdeal := by
  intro m ρ m' ρ' _ hagree
  refine ⟨fun c => Cert.Gcn.affine
      (Cert.ReferenceIdeal.Read.val_main_v9 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.Gcn.entry_affine m c), (h c).2⟩) (Cert.Gcn.kernel_run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.Gcn.reference_eq_affine,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
